-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S2x8 : Shape := ⟨2, ![2, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S4 .f32) (main_arg8 : FVec F S4 .f32) (main_arg9 : FVec F S4x1 .f32) (main_arg10 : FVec F S1 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x1 .f32 := Host.absf main_arg9
  let main_cst_16 : FVec F S_ .f32 := constant S_ .f32 0x7F800000#32
  let main_v45 : FVec F S4x1 .f32 := broadcastInDim S4x1 ![] bcast_S_S4x1 main_cst_16
  let main_v46 : IVec S4x1 1 := cmpf .olt main_v44 main_v45
  let main_c_17 : IVec S_ 1 := constantI S_ 1 1#1
  let main_v47 : IVec S_ 1 := (fun x v => Host.reduce IntOp.andi x v reducesTo_S4x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S8 .f32) (main_arg5 : FVec F S8x4 .f32) (main_arg6 : FVec F S4 .f32) (main_arg7 : FVec F S4 .f32) (main_arg8 : FVec F S4 .f32) (main_arg9 : FVec F S4x1 .f32) (main_arg10 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x4 .f32 := Host.absf main_arg5
  let main_cst_8 : FVec F S_ .f32 := constant S_ .f32 0x7F800000#32
  let main_v25 : FVec F S8x4 .f32 := broadcastInDim S8x4 ![] bcast_S_S8x4 main_cst_8
  let main_v26 : IVec S8x4 1 := cmpf .olt main_v24 main_v25
  let main_c_9 : IVec S_ 1 := constantI S_ 1 1#1
  let main_v27 : IVec S_ 1 := (fun x v => Host.reduce IntOp.andi x v reducesTo_S8x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8388608x2 .f32) (main_arg1 : FVec F S2x8 .f32) (main_arg2 : FVec F S8 .f32) (main_arg3 : FVec F S8 .f32) (main_arg4 : FVec F S8 .f32) (main_arg5 : FVec F S8x4 .f32) (main_arg6 : FVec F S4 .f32) (main_arg7 : FVec F S4 .f32) (main_arg8 : FVec F S4 .f32) (main_arg9 : FVec F S4x1 .f32) (main_arg10 : FVec F S1 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S2x8 .f32 := Host.absf main_arg1
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_arg8 main_arg9 main_arg10 main_v13 main_v16
-- ==== Kernel.lean ====
abbrev S8388608x2 : Shape := ⟨2, ![8388608, 2]⟩
abbrev S2x8 : Shape := ⟨2, ![2, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S1x8 : Shape := ⟨2, ![1, 8]⟩
abbrev S1x4 : Shape := ⟨2, ![1, 4]⟩
abbrev S1x1 : Shape := ⟨2, ![1, 1]⟩
abbrev S8388608x1 : Shape := ⟨2, ![8388608, 1]⟩
abbrev S524288x2 : Shape := ⟨2, ![524288, 2]⟩
abbrev S524288x1 : Shape := ⟨2, ![524288, 1]⟩
abbrev S524288x8 : Shape := ⟨2, ![524288, 8]⟩
abbrev S524288x4 : Shape := ⟨2, ![524288, 4]⟩

abbrev nBuf : Space → Nat
  | .hbm => 19
  | .vmem => 14
  | .smem => 0
  | _ => 0

abbrev bufTy : (tb : Table) → Fin (tcTables nBuf tb) → BufTy
  | .hbm, ⟨0, _⟩ => ⟨S8388608x2, .f32⟩
  | .hbm, ⟨1, _⟩ => ⟨S2x8, .f32⟩
  | .hbm, ⟨2, _⟩ => ⟨S8, .f32⟩
  | .hbm, ⟨3, _⟩ => ⟨S8, .f32⟩
  | .hbm, ⟨4, _⟩ => ⟨S8, .f32⟩
  | .hbm, ⟨5, _⟩ => ⟨S8x4, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4x1, .f32⟩
  | .hbm, ⟨10, _⟩ => ⟨S1, .f32⟩
  | .hbm, ⟨11, _⟩ => ⟨S1x8, .f32⟩
  | .hbm, ⟨12, _⟩ => ⟨S1x8, .f32⟩
  | .hbm, ⟨13, _⟩ => ⟨S1x8, .f32⟩
  | .hbm, ⟨14, _⟩ => ⟨S1x4, .f32⟩
  | .hbm, ⟨15, _⟩ => ⟨S1x4, .f32⟩
  | .hbm, ⟨16, _⟩ => ⟨S1x4, .f32⟩
  | .hbm, ⟨17, _⟩ => ⟨S1x1, .f32⟩
  | .hbm, ⟨18, _⟩ => ⟨S8388608x1, .f32⟩
  | .local _ .vmem, ⟨0, _⟩ => ⟨S524288x2, .f32⟩
  | .local _ .vmem, ⟨1, _⟩ => ⟨S524288x2, .f32⟩
  | .local _ .vmem, ⟨2, _⟩ => ⟨S2x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S8x4, .f32⟩
  | .local _ .vmem, ⟨7, _⟩ => ⟨S1x4, .f32⟩
  | .local _ .vmem, ⟨8, _⟩ => ⟨S1x4, .f32⟩
  | .local _ .vmem, ⟨9, _⟩ => ⟨S1x4, .f32⟩
  | .local _ .vmem, ⟨10, _⟩ => ⟨S4x1, .f32⟩
  | .local _ .vmem, ⟨11, _⟩ => ⟨S1x1, .f32⟩
  | .local _ .vmem, ⟨12, _⟩ => ⟨S524288x1, .f32⟩
  | .local _ .vmem, ⟨13, _⟩ => ⟨S524288x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S524288x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S524288x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8_S1x8 : S8.ShapeCasts S1x8
  shapeCasts_S4_S1x4 : S4.ShapeCasts S1x4
  shapeCasts_S1_S1x1 : S1.ShapeCasts S1x1
  inb_S524288x2_S524288x2_0_0 : ∀ a, (![0, 0] : Fin 2 → Nat) a + S524288x2.size a ≤ S524288x2.size a
  h_S524288x2 : 0 < S524288x2.numel
  inb_S2x8_S2x8_0_0 : ∀ a, (![0, 0] : Fin 2 → Nat) a + S2x8.size a ≤ S2x8.size a
  h_S2x8 : 0 < S2x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S524288x8 : S1x8.Broadcasts S524288x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S524288x4 : S1x4.Broadcasts S524288x4
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S524288x1 : S1x1.Broadcasts S524288x1
  inb_S524288x1_S524288x1_0_0 : ∀ a, (![0, 0] : Fin 2 → Nat) a + S524288x1.size a ≤ S524288x1.size a
  h_S524288x1 : 0 < S524288x1.numel
  dot_S524288x2_S2x8_S524288x8_1_0_0_1_n_n_wf : DotDims.WF S524288x2 S2x8 S524288x8 [1] [0] [0] [1] [] []
  dot_S524288x8_S8x4_S524288x4_1_0_0_1_n_n_wf : DotDims.WF S524288x8 S8x4 S524288x4 [1] [0] [0] [1] [] []
  dot_S524288x4_S4x1_S524288x1_1_0_0_1_n_n_wf : DotDims.WF S524288x4 S4x1 S524288x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S524288x2.size a ≤ S8388608x2.size a
  hwx0_0 : ∀ i : grid0.Coords, EltTy.bits .f32 = 32 ∨ (Rect.block (s := S8388608x2) S524288x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8.size a ≤ S2x8.size a
  hwx0_1 : ∀ i : grid0.Coords, EltTy.bits .f32 = 32 ∨ (Rect.block (s := S2x8) S2x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4.size a ≤ S1x4.size a
  hwx0_7 : ∀ i : grid0.Coords, EltTy.bits .f32 = 32 ∨ (Rect.block (s := S1x4) S1x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4.size a ≤ S1x4.size a
  hwx0_8 : ∀ i : grid0.Coords, EltTy.bits .f32 = 32 ∨ (Rect.block (s := S1x4) S1x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x1.size a ≤ S4x1.size a
  hwx0_9 : ∀ i : grid0.Coords, EltTy.bits .f32 = 32 ∨ (Rect.block (s := S4x1) S4x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S524288x1.size a ≤ S8388608x1.size a
  hwx0_11 : ∀ i : grid0.Coords, EltTy.bits .f32 = 32 ∨ (Rect.block (s := S8388608x1) S524288x1.size (cc0_transform_11 i) (hinb0_11 i)).WholeWords (EltTy.packing .f32)

variable [Facts₀]

def dot_S524288x2_S2x8_S524288x8_1_0_0_1_n_n : DotDims S524288x2 S2x8 S524288x8 where
  lhsContracting := [1]
  rhsContracting := [0]
  lhsNonContracting := [0]
  rhsNonContracting := [1]
  lhsBatch := []
  rhsBatch := []
  wf := dot_S524288x2_S2x8_S524288x8_1_0_0_1_n_n_wf
def dot_S524288x8_S8x4_S524288x4_1_0_0_1_n_n : DotDims S524288x8 S8x4 S524288x4 where
  lhsContracting := [1]
  rhsContracting := [0]
  lhsNonContracting := [0]
  rhsNonContracting := [1]
  lhsBatch := []
  rhsBatch := []
  wf := dot_S524288x8_S8x4_S524288x4_1_0_0_1_n_n_wf
def dot_S524288x4_S4x1_S524288x1_1_0_0_1_n_n : DotDims S524288x4 S4x1 S524288x1 where
  lhsContracting := [1]
  rhsContracting := [0]
  lhsNonContracting := [0]
  rhsNonContracting := [1]
  lhsBatch := []
  rhsBatch := []
  wf := dot_S524288x4_S4x1_S524288x1_1_0_0_1_n_n_wf

abbrev win0_0 : Pipeline.Window sig grid0 :=
  Pipeline.Window.ofSpec (Memref.whole main_arg0) S524288x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S524288x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S2x8 : Shape := ⟨2, ![2, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S8388608x8 : Shape := ⟨2, ![8388608, 8]⟩
abbrev S1x8 : Shape := ⟨2, ![1, 8]⟩
abbrev S_ : Shape := ⟨0, ![]⟩
abbrev S8388608x4 : Shape := ⟨2, ![8388608, 4]⟩
abbrev S1x4 : Shape := ⟨2, ![1, 4]⟩
abbrev S8388608x1 : Shape := ⟨2, ![8388608, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S2x8, .f32⟩
  | .hbm, ⟨2, _⟩ => ⟨S8, .f32⟩
  | .hbm, ⟨3, _⟩ => ⟨S8, .f32⟩
  | .hbm, ⟨4, _⟩ => ⟨S8, .f32⟩
  | .hbm, ⟨5, _⟩ => ⟨S8x4, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4x1, .f32⟩
  | .hbm, ⟨10, _⟩ => ⟨S1, .f32⟩
  | .hbm, ⟨11, _⟩ => ⟨S8388608x8, .f32⟩
  | .hbm, ⟨12, _⟩ => ⟨S1x8, .f32⟩
  | .hbm, ⟨13, _⟩ => ⟨S8388608x8, .f32⟩
  | .hbm, ⟨14, _⟩ => ⟨S8388608x8, .f32⟩
  | .hbm, ⟨15, _⟩ => ⟨S1x8, .f32⟩
  | .hbm, ⟨16, _⟩ => ⟨S8388608x8, .f32⟩
  | .hbm, ⟨17, _⟩ => ⟨S8388608x8, .f32⟩
  | .hbm, ⟨18, _⟩ => ⟨S1x8, .f32⟩
  | .hbm, ⟨19, _⟩ => ⟨S8388608x8, .f32⟩
  | .hbm, ⟨20, _⟩ => ⟨S8388608x8, .f32⟩
  | .hbm, ⟨21, _⟩ => ⟨S8388608x8, .f32⟩
  | .hbm, ⟨22, _⟩ => ⟨S8388608x8, .f32⟩
  | .hbm, ⟨23, _⟩ => ⟨S_, .f32⟩
  | .hbm, ⟨24, _⟩ => ⟨S8388608x8, .f32⟩
  | .hbm, ⟨25, _⟩ => ⟨S8388608x8, .f32⟩
  | .hbm, ⟨26, _⟩ => ⟨S_, .f32⟩
  | .hbm, ⟨27, _⟩ => ⟨S8388608x8, .f32⟩
  | .hbm, ⟨28, _⟩ => ⟨S8388608x8, .f32⟩
  | .hbm, ⟨29, _⟩ => ⟨S8388608x8, .f32⟩
  | .hbm, ⟨30, _⟩ => ⟨S8388608x4, .f32⟩
  | .hbm, ⟨31, _⟩ => ⟨S1x4, .f32⟩
  | .hbm, ⟨32, _⟩ => ⟨S8388608x4, .f32⟩
  | .hbm, ⟨33, _⟩ => ⟨S8388608x4, .f32⟩
  | .hbm, ⟨34, _⟩ => ⟨S1x4, .f32⟩
  | .hbm, ⟨35, _⟩ => ⟨S8388608x4, .f32⟩
  | .hbm, ⟨36, _⟩ => ⟨S8388608x4, .f32⟩
  | .hbm, ⟨37, _⟩ => ⟨S1x4, .f32⟩
  | .hbm, ⟨38, _⟩ => ⟨S8388608x4, .f32⟩
  | .hbm, ⟨39, _⟩ => ⟨S8388608x4, .f32⟩
  | .hbm, ⟨40, _⟩ => ⟨S8388608x4, .f32⟩
  | .hbm, ⟨41, _⟩ => ⟨S8388608x4, .f32⟩
  | .hbm, ⟨42, _⟩ => ⟨S_, .f32⟩
  | .hbm, ⟨43, _⟩ => ⟨S8388608x4, .f32⟩
  | .hbm, ⟨44, _⟩ => ⟨S8388608x4, .f32⟩
  | .hbm, ⟨45, _⟩ => ⟨S_, .f32⟩
  | .hbm, ⟨46, _⟩ => ⟨S8388608x4, .f32⟩
  | .hbm, ⟨47, _⟩ => ⟨S8388608x4, .f32⟩
  | .hbm, ⟨48, _⟩ => ⟨S8388608x4, .f32⟩
  | .hbm, ⟨49, _⟩ => ⟨S8388608x1, .f32⟩
  | .hbm, ⟨50, _⟩ => ⟨S1x1, .f32⟩
  | .hbm, ⟨51, _⟩ => ⟨S8388608x1, .f32⟩
  | .hbm, ⟨52, _⟩ => ⟨S8388608x1, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S8388608x8_0_1 : S1x8.BroadcastsInDim S8388608x8 (![0, 1] : Fin 2 → Fin S8388608x8.rank)
  bcast_S_S8388608x8 : S_.BroadcastsInDim S8388608x8 (![] : Fin 0 → Fin S8388608x8.rank)
  bcast_S4_S1x4_1 : S4.BroadcastsInDim S1x4 (![1] : Fin 1 → Fin S1x4.rank)
  bcast_S1x4_S8388608x4_0_1 : S1x4.BroadcastsInDim S8388608x4 (![0, 1] : Fin 2 → Fin S8388608x4.rank)
  bcast_S_S8388608x4 : S_.BroadcastsInDim S8388608x4 (![] : Fin 0 → Fin S8388608x4.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  dot_S8388608x2_S2x8_S8388608x8_1_0_0_1_n_n_wf : DotDims.WF S8388608x2 S2x8 S8388608x8 [1] [0] [0] [1] [] []
  dot_S8388608x8_S8x4_S8388608x4_1_0_0_1_n_n_wf : DotDims.WF S8388608x8 S8x4 S8388608x4 [1] [0] [0] [1] [] []
  dot_S8388608x4_S4x1_S8388608x1_1_0_0_1_n_n_wf : DotDims.WF S8388608x4 S4x1 S8388608x1 [1] [0] [0] [1] [] []

variable [Facts₀]

def dot_S8388608x2_S2x8_S8388608x8_1_0_0_1_n_n : DotDims S8388608x2 S2x8 S8388608x8 where
  lhsContracting := [1]
  rhsContracting := [0]
  lhsNonContracting := [0]
  rhsNonContracting := [1]
  lhsBatch := []
  rhsBatch := []
  wf := dot_S8388608x2_S2x8_S8388608x8_1_0_0_1_n_n_wf
def dot_S8388608x8_S8x4_S8388608x4_1_0_0_1_n_n : DotDims S8388608x8 S8x4 S8388608x4 where
  lhsContracting := [1]
  rhsContracting := [0]
  lhsNonContracting := [0]
  rhsNonContracting := [1]
  lhsBatch := []
  rhsBatch := []
  wf := dot_S8388608x8_S8x4_S8388608x4_1_0_0_1_n_n_wf
def dot_S8388608x4_S4x1_S8388608x1_1_0_0_1_n_n : DotDims S8388608x4 S4x1 S8388608x1 where
  lhsContracting := [1]
  rhsContracting := [0]
  lhsNonContracting := [0]
  rhsNonContracting := [1]
  lhsBatch := []
  rhsBatch := []
  wf := dot_S8388608x4_S4x1_S8388608x1_1_0_0_1_n_n_wf

class Facts : Prop extends Facts₀ where

variable [Facts]
-- ==== Proof.MlpRow.lean ====
/-
  The network both programs compute, one batch row at a time, on the extended reals.

  A row x ∈ ℝ̄² goes through three affine layers, the first two followed by the gated activation
  g(h)_j = (a_j · h_j) · σ(c_j · h_j), σ the logistic function 1 / (1 + e^(-z)):

      h¹ = x·W1 + b1 ∈ ℝ̄⁸,   u¹ = g(h¹; a1, c1),
      h² = u¹·W2 + b2 ∈ ℝ̄⁴,  u² = g(h²; a2, c2),
      out = u²·W3 + b3 ∈ ℝ̄¹.

  Every sum is a finite sum over the contracted axis in the order of the index type, every product has its
  factors in the order written above; nothing here uses a law of the reals, so infinite entries are allowed.
  The result array of the whole batch is this row function at each of the 8388608 rows.
-/
import Idealize.ShloMosaic.PureOps.Ideal
import Idealize.ShloMosaic.Lib.ValueIdx

noncomputable section

namespace MlpRow

open Idealize.ShloMosaic Idealize.ShloMosaic.ValueIdx

/-- One affine layer at one row: (h·W + b)_j = Σ_k h_k · W[k,j] + b_j. -/
def affine {K N : ℕ} (h : Fin K → EReal) (W : (⟨2, ![K, N]⟩ : Shape).Idx → EReal) (b : Fin N → EReal) : Fin N → EReal :=
  fun j => (∑ k : Fin K, h k * W (ix2 k j)) + b j

/-- The gated activation at one row: g(h)_j = (a_j · h_j) · σ(c_j · h_j). -/
def gate {N : ℕ} (a c h : Fin N → EReal) : Fin N → EReal :=
  fun j => (a j * h j) * Ideal.logistic (c j * h j)

/-- The network's one output for the row `x`. -/
def out (x : Fin 2 → EReal) (W1 : (⟨2, ![2, 8]⟩ : Shape).Idx → EReal) (b1 a1 c1 : Fin 8 → EReal)
    (W2 : (⟨2, ![8, 4]⟩ : Shape).Idx → EReal) (b2 a2 c2 : Fin 4 → EReal)
    (W3 : (⟨2, ![4, 1]⟩ : Shape).Idx → EReal) (b3 : Fin 1 → EReal) : EReal :=
  affine (gate a2 c2 (affine (gate a1 c1 (affine x W1 b1)) W2 b2)) W3 b3 0

/-- The whole batch: the [8388608, 1] result array as one function of the eleven argument arrays. -/
def batch (x : (⟨2, ![8388608, 2]⟩ : Shape).Idx → EReal) (W1 : (⟨2, ![2, 8]⟩ : Shape).Idx → EReal)
    (b1 a1 c1 : (⟨1, ![8]⟩ : Shape).Idx → EReal) (W2 : (⟨2, ![8, 4]⟩ : Shape).Idx → EReal)
    (b2 a2 c2 : (⟨1, ![4]⟩ : Shape).Idx → EReal) (W3 : (⟨2, ![4, 1]⟩ : Shape).Idx → EReal)
    (b3 : (⟨1, ![1]⟩ : Shape).Idx → EReal) : (⟨2, ![8388608, 1]⟩ : Shape).Idx → EReal :=
  fun i => out (fun k => x (ix2 (i 0) k)) W1 (fun j => b1 (ix1 j)) (fun j => a1 (ix1 j)) (fun j => c1 (ix1 j))
    W2 (fun j => b2 (ix1 j)) (fun j => a2 (ix1 j)) (fun j => c2 (ix1 j)) W3 (fun j => b3 (ix1 j))

end MlpRow

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.TcLayers.lean ====
/-
  The TensorCore's spelling of one layer of the network, read at one entry (p, q), at exact arithmetic, for any number
  M of rows.

  * A product of an M×K by a K×N matrix into a zero accumulator, plus a bias kept as a [1, N] row that is re-cast to its
    own shape and repeated down the M rows, is at (p, q) the affine layer  Σ_k h[p,k] · W[k,q] + b[0,q]  of row p.
  * The gated activation  (a ⊙ h) ⊙ σ(c ⊙ h)  with a and c kept as [1, N] rows repeated down the rows, is at (p, q)
    (a[0,q] · h[p,q]) · σ(c[0,q] · h[p,q]):  the vector operations act entry by entry, and the TensorCore's logistic
    operation is the function 1 / (1 + e^(-z)) on the extended reals.
-/
import Idealize.ShloMosaic.Lib.ValueIdx
import Idealize.ShloMosaic.Lib.ValueLayout
import Idealize.ShloMosaic.Lib.Pipeline.Value
import Idealize.ShloMosaic.PureOps.Ideal.Laws
import proofs.«168140_j66365834658304_1_alg».proof.Proof.MlpRow
import proofs.«168140_j66365834658304_1_alg».proof.Proof.LibMatmulIdx

noncomputable section

namespace TcLayers

open Idealize.ShloMosaic Idealize.ShloMosaic.ValueIdx

/-- A plain matrix product (left axis 1 against right axis 0, no batch axes) into a zero accumulator, at an entry:
    Σ_k l[j₀,k] · r[k,j₁]. -/
theorem matmul_plain_apply {M K N : ℕ} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (j : (⟨2, ![M, N]⟩ : Shape).Idx) :
    FloatOps.matmul (F := Ideal) D none l r (constant ⟨2, ![M, N]⟩ .f32 0x00000000#32) j
      = ∑ k : Fin K, l (ix2 (j 0) k) * r (ix2 k (j 1)) := by
  subst hD
  exact LibMatmulIdx.matmul2_apply (DotDims.plain M K N) rfl rfl (fun _ _ => rfl) (fun _ _ => rfl) (fun _ _ => rfl)
    (fun _ _ => rfl) none l r j

/-- Product plus bias row, at entry (p, q), is the affine layer of row p at q. -/
theorem affine_apply {M K N : ℕ} (D : DotDims ⟨2, ![M, K]⟩ ⟨2, ![K, N]⟩ ⟨2, ![M, N]⟩) (hD : D = DotDims.plain M K N)
    (hc : (⟨2, ![1, N]⟩ : Shape).ShapeCasts ⟨2, ![1, N]⟩) (hb : (⟨2, ![1, N]⟩ : Shape).Broadcasts ⟨2, ![M, N]⟩)
    (h : FVec Ideal ⟨2, ![M, K]⟩ .f32) (W : FVec Ideal ⟨2, ![K, N]⟩ .f32) (b : FVec Ideal ⟨2, ![1, N]⟩ .f32)
    (p : Fin M) (q : Fin N) :
    addf (matmul D none h W (constant ⟨2, ![M, N]⟩ .f32 0x00000000#32))
        (broadcastTo ⟨2, ![M, N]⟩ (shapeCast ⟨2, ![1, N]⟩ b hc) hb) (ix2 p q)
      = MlpRow.affine (fun k => h (ix2 p k)) W (fun j => b (ix2 (0 : Fin 1) j)) q := by
  have eb := broadcastTo_1b_ab_apply (shapeCast ⟨2, ![1, N]⟩ b hc) hb p q
  show FloatOps.matmul (F := Ideal) D none h W (constant ⟨2, ![M, N]⟩ .f32 0x00000000#32) (ix2 p q)
      + broadcastTo ⟨2, ![M, N]⟩ (shapeCast ⟨2, ![1, N]⟩ b hc) hb (ix2 p q) = _
  rw [matmul_plain_apply D hD, eb, shapeCast_self]
  rfl

/-- The gated activation at entry (p, q). -/
theorem gate_apply {M N : ℕ}
    (hc : (⟨2, ![1, N]⟩ : Shape).ShapeCasts ⟨2, ![1, N]⟩) (hb : (⟨2, ![1, N]⟩ : Shape).Broadcasts ⟨2, ![M, N]⟩)
    (a c : FVec Ideal ⟨2, ![1, N]⟩ .f32) (h : FVec Ideal ⟨2, ![M, N]⟩ .f32) (p : Fin M) (q : Fin N) :
    mulf (mulf (broadcastTo ⟨2, ![M, N]⟩ (shapeCast ⟨2, ![1, N]⟩ a hc) hb) h)
        (logistic (mulf (broadcastTo ⟨2, ![M, N]⟩ (shapeCast ⟨2, ![1, N]⟩ c hc) hb) h)) (ix2 p q)
      = MlpRow.gate (fun j => a (ix2 (0 : Fin 1) j)) (fun j => c (ix2 (0 : Fin 1) j)) (fun j => h (ix2 p j)) q := by
  have ea := broadcastTo_1b_ab_apply (shapeCast ⟨2, ![1, N]⟩ a hc) hb p q
  have ec := broadcastTo_1b_ab_apply (shapeCast ⟨2, ![1, N]⟩ c hc) hb p q
  show (broadcastTo ⟨2, ![M, N]⟩ (shapeCast ⟨2, ![1, N]⟩ a hc) hb (ix2 p q) * h (ix2 p q))
      * Ideal.logistic (broadcastTo ⟨2, ![M, N]⟩ (shapeCast ⟨2, ![1, N]⟩ c hc) hb (ix2 p q) * h (ix2 p q)) = _
  rw [ea, ec, shapeCast_self, shapeCast_self]
  rfl

end TcLayers

end
-- ==== Proof.KernelRow.lean ====
/-
  What the kernel body stores, at one row of a block, is the network's output for that row.

  The body loads a block of 524288 rows of x and the whole of the ten parameter arrays (the vectors as [1, n] rows),
  and stores  g(g(x·W1 + b1)·W2 + b2)·W3 + b3  as a [524288, 1] column, with every product a TensorCore product into a
  zero accumulator and every [1, n] row repeated down the block. Row p of that column depends on row p of the block of x
  only: it is the row function of the specification at that row and at the parameter arrays' entries.
-/
import proofs.«168140_j66365834658304_1_alg».proof.Proof.Gen.KernelIdeal.Skeleton
import proofs.«168140_j66365834658304_1_alg».proof.Proof.TcLayers

noncomputable section

namespace Cert.KernelIdeal.Row

open Cert.KernelIdeal Cert.KernelIdeal.Gen Idealize.ShloMosaic Idealize.ShloMosaic.ValueIdx

/-- The stored column at row `p` of the block. -/
theorem stored_row (P0 : FVec Ideal S524288x2 .f32) (P1 : FVec Ideal S2x8 .f32) (P2 P3 P4 : FVec Ideal S1x8 .f32)
    (P5 : FVec Ideal S8x4 .f32) (P6 P7 P8 : FVec Ideal S1x4 .f32) (P9 : FVec Ideal S4x1 .f32) (P10 : FVec Ideal S1x1 .f32)
    (p : Fin 524288) :
    k0_pay1 (F := Ideal) (k0_pay2 (F := Ideal) P0 P1 P2 P3 P4 P5 P6 P7 P8 P9) P10 (ix2 p (0 : Fin 1))
      = MlpRow.out (fun k => P0 (ix2 p k)) P1 (fun j => P2 (ix2 (0 : Fin 1) j)) (fun j => P3 (ix2 (0 : Fin 1) j)) (fun j => P4 (ix2 (0 : Fin 1) j))
          P5 (fun j => P6 (ix2 (0 : Fin 1) j)) (fun j => P7 (ix2 (0 : Fin 1) j)) (fun j => P8 (ix2 (0 : Fin 1) j)) P9 (fun j => P10 (ix2 (0 : Fin 1) j)) := by
  -- the four intermediate blocks: first affine layer, its activation, second affine layer, its activation
  let h1 : FVec Ideal S524288x8 .f32 :=
    addf (matmul dot_S524288x2_S2x8_S524288x8_1_0_0_1_n_n none P0 P1 (constant S524288x8 .f32 0x00000000#32)) (broadcastTo S524288x8 (shapeCast S1x8 P2 Facts₀.shapeCasts_S1x8_S1x8) Facts₀.broadcasts_S1x8_S524288x8)
  let u1 : FVec Ideal S524288x8 .f32 :=
    mulf (mulf (broadcastTo S524288x8 (shapeCast S1x8 P3 Facts₀.shapeCasts_S1x8_S1x8) Facts₀.broadcasts_S1x8_S524288x8) h1) (logistic (mulf (broadcastTo S524288x8 (shapeCast S1x8 P4 Facts₀.shapeCasts_S1x8_S1x8) Facts₀.broadcasts_S1x8_S524288x8) h1))
  let h2 : FVec Ideal S524288x4 .f32 :=
    addf (matmul dot_S524288x8_S8x4_S524288x4_1_0_0_1_n_n none u1 P5 (constant S524288x4 .f32 0x00000000#32)) (broadcastTo S524288x4 (shapeCast S1x4 P6 Facts₀.shapeCasts_S1x4_S1x4) Facts₀.broadcasts_S1x4_S524288x4)
  let u2 : FVec Ideal S524288x4 .f32 :=
    mulf (mulf (broadcastTo S524288x4 (shapeCast S1x4 P7 Facts₀.shapeCasts_S1x4_S1x4) Facts₀.broadcasts_S1x4_S524288x4) h2) (logistic (mulf (broadcastTo S524288x4 (shapeCast S1x4 P8 Facts₀.shapeCasts_S1x4_S1x4) Facts₀.broadcasts_S1x4_S524288x4) h2))
  -- row p of each, as the specification's layers
  have e1 : (fun j => h1 (ix2 p j)) = (MlpRow.affine (fun k => P0 (ix2 p k)) P1 (fun j => P2 (ix2 (0 : Fin 1) j))) :=
    funext fun j => TcLayers.affine_apply dot_S524288x2_S2x8_S524288x8_1_0_0_1_n_n rfl Facts₀.shapeCasts_S1x8_S1x8 Facts₀.broadcasts_S1x8_S524288x8 P0 P1 P2 p j
  have e2 : (fun j => u1 (ix2 p j)) = (MlpRow.gate (fun j => P3 (ix2 (0 : Fin 1) j)) (fun j => P4 (ix2 (0 : Fin 1) j)) (MlpRow.affine (fun k => P0 (ix2 p k)) P1 (fun j => P2 (ix2 (0 : Fin 1) j)))) :=
    funext fun j => (TcLayers.gate_apply Facts₀.shapeCasts_S1x8_S1x8 Facts₀.broadcasts_S1x8_S524288x8 P3 P4 h1 p j).trans (by rw [e1])
  have e3 : (fun j => h2 (ix2 p j)) = (MlpRow.affine (MlpRow.gate (fun j => P3 (ix2 (0 : Fin 1) j)) (fun j => P4 (ix2 (0 : Fin 1) j)) (MlpRow.affine (fun k => P0 (ix2 p k)) P1 (fun j => P2 (ix2 (0 : Fin 1) j)))) P5 (fun j => P6 (ix2 (0 : Fin 1) j))) :=
    funext fun j => (TcLayers.affine_apply dot_S524288x8_S8x4_S524288x4_1_0_0_1_n_n rfl Facts₀.shapeCasts_S1x4_S1x4 Facts₀.broadcasts_S1x4_S524288x4 u1 P5 P6 p j).trans (by rw [e2])
  have e4 : (fun j => u2 (ix2 p j)) = (MlpRow.gate (fun j => P7 (ix2 (0 : Fin 1) j)) (fun j => P8 (ix2 (0 : Fin 1) j)) (MlpRow.affine (MlpRow.gate (fun j => P3 (ix2 (0 : Fin 1) j)) (fun j => P4 (ix2 (0 : Fin 1) j)) (MlpRow.affine (fun k => P0 (ix2 p k)) P1 (fun j => P2 (ix2 (0 : Fin 1) j)))) P5 (fun j => P6 (ix2 (0 : Fin 1) j)))) :=
    funext fun j => (TcLayers.gate_apply Facts₀.shapeCasts_S1x4_S1x4 Facts₀.broadcasts_S1x4_S524288x4 P7 P8 h2 p j).trans (by rw [e3])
  show addf (matmul dot_S524288x4_S4x1_S524288x1_1_0_0_1_n_n none u2 P9 (constant S524288x1 .f32 0x00000000#32)) (broadcastTo S524288x1 (shapeCast S1x1 P10 Facts₀.shapeCasts_S1x1_S1x1) Facts₀.broadcasts_S1x1_S524288x1)
      (ix2 p (0 : Fin 1)) = _
  rw [TcLayers.affine_apply dot_S524288x4_S4x1_S524288x1_1_0_0_1_n_n rfl Facts₀.shapeCasts_S1x1_S1x1 Facts₀.broadcasts_S1x1_S524288x1 u2 P9 P10 p (0 : Fin 1), e4]
  rfl

end Cert.KernelIdeal.Row

end
-- ==== Proof.KernelValue.lean ====
/-
  The kernel's result array, read off its frame run: the [8388608, 1] array ends holding the network's output at every
  row.

  The call runs a grid of 16 points. Point t stages rows 524288·t … 524288·t + 524287 of x and the whole of each
  parameter array (the seven vectors through the [1, n] rows the host laid them out as before the call), and writes
  back block t of the result. What it writes at row p of the block is the row function of the specification at row
  524288·t + p of x. The 16 blocks tile the result array, so the array is the batch function of the arguments.
-/
import proofs.«168140_j66365834658304_1_alg».proof.Proof.Gen.KernelIdeal.Frame
import Idealize.ShloMosaic.Lib.Pipeline.Value
import Idealize.ShloMosaic.Lib.ValueLayout
import Idealize.ShloMosaic.Lib.StableHlo.Run
import proofs.«168140_j66365834658304_1_alg».proof.Proof.KernelRow

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result: the batch function of the eleven argument arrays as launched. -/
abbrev result (c : Dev nD) : S8388608x1.Idx → EReal :=
  MlpRow.batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The block index of every window at every grid point: the x window and the result window move down the rows with the
    point, every parameter window stays at block (0, 0). -/
theorem index_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-! ### The staged blocks as entries of the argument arrays -/

/-- Row p of the block of x at point t is row 524288·t + p of x. -/
theorem x_rows (c : Dev nD) (t : Fin cfg0.N) (p : Fin 524288) (r : Fin 8388608) (hr : r.val = t.val * 524288 + p.val) :
    (fun k : Fin 2 => (iblk m c 0 t : FVec Ideal S524288x2 .f32) (ix2 p k)) = fun k => (m ((c : Thread nD τ).loc main_arg0)) (ix2 r k) := by
  obtain ⟨i0a, i0b, i1a, i1b, i2a, i2b, i3a, i3b, i4a, i4b, i5a, i5b, i6a, i6b, i7a, i7b, i8a, i8b, i9a, i9b, i10a, i10b, i11a, i11b⟩ := index_facts t
  funext k
  unfold iblk
  rw [View.read_apply]
  show V m c main_arg0 _ = _
  rw [V_main_arg0 m c]
  refine congrArg (m ((c : Thread nD τ).loc main_arg0)) ?_
  funext a
  apply Fin.ext
  match a with
  | ⟨0, _⟩ => show win0_0.index t (0 : Fin 2) * 524288 + 1 * p.val = r.val; omega
  | ⟨1, _⟩ => show win0_0.index t (1 : Fin 2) * 2 + 1 * k.val = k.val; omega

/-- Window 1's block at every point is the whole of its array. -/
theorem whole_1 (c : Dev nD) (t : Fin cfg0.N) : (iblk m c 1 t : FVec Ideal S2x8 .f32) = (m ((c : Thread nD τ).loc main_arg1)) := by
  obtain ⟨i0a, i0b, i1a, i1b, i2a, i2b, i3a, i3b, i4a, i4b, i5a, i5b, i6a, i6b, i7a, i7b, i8a, i8b, i9a, i9b, i10a, i10b, i11a, i11b⟩ := index_facts t
  funext y
  unfold iblk
  rw [View.read_apply]
  show V m c main_arg1 _ = _
  rw [V_main_arg1 m c]
  refine congrArg (m ((c : Thread nD τ).loc main_arg1)) ?_
  funext a
  apply Fin.ext
  match a with
  | ⟨0, _⟩ => show win0_1.index t (0 : Fin 2) * 2 + 1 * (y 0).val = (y 0).val; omega
  | ⟨1, _⟩ => show win0_1.index t (1 : Fin 2) * 8 + 1 * (y 1).val = (y 1).val; omega

/-- Window 5's block at every point is the whole of its array. -/
theorem whole_5 (c : Dev nD) (t : Fin cfg0.N) : (iblk m c 5 t : FVec Ideal S8x4 .f32) = (m ((c : Thread nD τ).loc main_arg5)) := by
  obtain ⟨i0a, i0b, i1a, i1b, i2a, i2b, i3a, i3b, i4a, i4b, i5a, i5b, i6a, i6b, i7a, i7b, i8a, i8b, i9a, i9b, i10a, i10b, i11a, i11b⟩ := index_facts t
  funext y
  unfold iblk
  rw [View.read_apply]
  show V m c main_arg5 _ = _
  rw [V_main_arg5 m c]
  refine congrArg (m ((c : Thread nD τ).loc main_arg5)) ?_
  funext a
  apply Fin.ext
  match a with
  | ⟨0, _⟩ => show win0_5.index t (0 : Fin 2) * 8 + 1 * (y 0).val = (y 0).val; omega
  | ⟨1, _⟩ => show win0_5.index t (1 : Fin 2) * 4 + 1 * (y 1).val = (y 1).val; omega

/-- Window 9's block at every point is the whole of its array. -/
theorem whole_9 (c : Dev nD) (t : Fin cfg0.N) : (iblk m c 9 t : FVec Ideal S4x1 .f32) = (m ((c : Thread nD τ).loc main_arg9)) := by
  obtain ⟨i0a, i0b, i1a, i1b, i2a, i2b, i3a, i3b, i4a, i4b, i5a, i5b, i6a, i6b, i7a, i7b, i8a, i8b, i9a, i9b, i10a, i10b, i11a, i11b⟩ := index_facts t
  funext y
  unfold iblk
  rw [View.read_apply]
  show V m c main_arg9 _ = _
  rw [V_main_arg9 m c]
  refine congrArg (m ((c : Thread nD τ).loc main_arg9)) ?_
  funext a
  apply Fin.ext
  match a with
  | ⟨0, _⟩ => show win0_9.index t (0 : Fin 2) * 4 + 1 * (y 0).val = (y 0).val; omega
  | ⟨1, _⟩ => show win0_9.index t (1 : Fin 2) * 1 + 1 * (y 1).val = (y 1).val; omega

/-- The host lays the vector `main_arg2` out as a [1, 8] row before the call. -/
theorem laid_main_v0 (c : Dev nD) :
    (V m c main_v0 : S1x8.Idx → EReal) = shapeCast S1x8 (m ((c : Thread nD τ).loc main_arg2)) Facts₀.shapeCasts_S8_S1x8 := by
  dsimp only [Gen.V, Gen.hostOps0]
  after_results
  rfl

/-- The host lays the vector `main_arg3` out as a [1, 8] row before the call. -/
theorem laid_main_v1 (c : Dev nD) :
    (V m c main_v1 : S1x8.Idx → EReal) = shapeCast S1x8 (m ((c : Thread nD τ).loc main_arg3)) Facts₀.shapeCasts_S8_S1x8 := by
  dsimp only [Gen.V, Gen.hostOps0]
  after_results
  rfl

/-- The host lays the vector `main_arg4` out as a [1, 8] row before the call. -/
theorem laid_main_v2 (c : Dev nD) :
    (V m c main_v2 : S1x8.Idx → EReal) = shapeCast S1x8 (m ((c : Thread nD τ).loc main_arg4)) Facts₀.shapeCasts_S8_S1x8 := by
  dsimp only [Gen.V, Gen.hostOps0]
  after_results
  rfl

/-- The host lays the vector `main_arg6` out as a [1, 4] row before the call. -/
theorem laid_main_v3 (c : Dev nD) :
    (V m c main_v3 : S1x4.Idx → EReal) = shapeCast S1x4 (m ((c : Thread nD τ).loc main_arg6)) Facts₀.shapeCasts_S4_S1x4 := by
  dsimp only [Gen.V, Gen.hostOps0]
  after_results
  rfl

/-- The host lays the vector `main_arg7` out as a [1, 4] row before the call. -/
theorem laid_main_v4 (c : Dev nD) :
    (V m c main_v4 : S1x4.Idx → EReal) = shapeCast S1x4 (m ((c : Thread nD τ).loc main_arg7)) Facts₀.shapeCasts_S4_S1x4 := by
  dsimp only [Gen.V, Gen.hostOps0]
  after_results
  rfl

/-- The host lays the vector `main_arg8` out as a [1, 4] row before the call. -/
theorem laid_main_v5 (c : Dev nD) :
    (V m c main_v5 : S1x4.Idx → EReal) = shapeCast S1x4 (m ((c : Thread nD τ).loc main_arg8)) Facts₀.shapeCasts_S4_S1x4 := by
  dsimp only [Gen.V, Gen.hostOps0]
  after_results
  rfl

/-- The host lays the vector `main_arg10` out as a [1, 1] row before the call. -/
theorem laid_main_v6 (c : Dev nD) :
    (V m c main_v6 : S1x1.Idx → EReal) = shapeCast S1x1 (m ((c : Thread nD τ).loc main_arg10)) Facts₀.shapeCasts_S1_S1x1 := by
  dsimp only [Gen.V, Gen.hostOps0]
  after_results
  rfl

/-- Window 2's block is the [1, 8] row the host laid `main_arg2` out as: entry (0, j) is the vector's entry j. -/
theorem row_2 (c : Dev nD) (t : Fin cfg0.N) :
    (fun j : Fin 8 => (iblk m c 2 t : FVec Ideal S1x8 .f32) (ix2 (0 : Fin 1) j)) = fun j => (m ((c : Thread nD τ).loc main_arg2)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v0 _ = _
  rw [laid_main_v0 m c]
  refine (congrArg (shapeCast S1x8 (m ((c : Thread nD τ).loc main_arg2)) Facts₀.shapeCasts_S8_S1x8) (?_ : _ = ix2 (0 : Fin 1) j)).trans
    (shapeCast_a_1a_apply _ _ (0 : Fin 1) j)
  funext a
  apply Fin.ext
  match a with
  | ⟨0, _⟩ => show win0_2.index t (0 : Fin 2) * 1 + 1 * 0 = 0; omega
  | ⟨1, _⟩ => show win0_2.index t (1 : Fin 2) * 8 + 1 * j.val = j.val; omega

/-- Window 3's block is the [1, 8] row the host laid `main_arg3` out as: entry (0, j) is the vector's entry j. -/
theorem row_3 (c : Dev nD) (t : Fin cfg0.N) :
    (fun j : Fin 8 => (iblk m c 3 t : FVec Ideal S1x8 .f32) (ix2 (0 : Fin 1) j)) = fun j => (m ((c : Thread nD τ).loc main_arg3)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v1 _ = _
  rw [laid_main_v1 m c]
  refine (congrArg (shapeCast S1x8 (m ((c : Thread nD τ).loc main_arg3)) Facts₀.shapeCasts_S8_S1x8) (?_ : _ = ix2 (0 : Fin 1) j)).trans
    (shapeCast_a_1a_apply _ _ (0 : Fin 1) j)
  funext a
  apply Fin.ext
  match a with
  | ⟨0, _⟩ => show win0_3.index t (0 : Fin 2) * 1 + 1 * 0 = 0; omega
  | ⟨1, _⟩ => show win0_3.index t (1 : Fin 2) * 8 + 1 * j.val = j.val; omega

/-- Window 4's block is the [1, 8] row the host laid `main_arg4` out as: entry (0, j) is the vector's entry j. -/
theorem row_4 (c : Dev nD) (t : Fin cfg0.N) :
    (fun j : Fin 8 => (iblk m c 4 t : FVec Ideal S1x8 .f32) (ix2 (0 : Fin 1) j)) = fun j => (m ((c : Thread nD τ).loc main_arg4)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v2 _ = _
  rw [laid_main_v2 m c]
  refine (congrArg (shapeCast S1x8 (m ((c : Thread nD τ).loc main_arg4)) Facts₀.shapeCasts_S8_S1x8) (?_ : _ = ix2 (0 : Fin 1) j)).trans
    (shapeCast_a_1a_apply _ _ (0 : Fin 1) j)
  funext a
  apply Fin.ext
  match a with
  | ⟨0, _⟩ => show win0_4.index t (0 : Fin 2) * 1 + 1 * 0 = 0; omega
  | ⟨1, _⟩ => show win0_4.index t (1 : Fin 2) * 8 + 1 * j.val = j.val; omega

/-- Window 6's block is the [1, 4] row the host laid `main_arg6` out as: entry (0, j) is the vector's entry j. -/
theorem row_6 (c : Dev nD) (t : Fin cfg0.N) :
    (fun j : Fin 4 => (iblk m c 6 t : FVec Ideal S1x4 .f32) (ix2 (0 : Fin 1) j)) = fun j => (m ((c : Thread nD τ).loc main_arg6)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v3 _ = _
  rw [laid_main_v3 m c]
  refine (congrArg (shapeCast S1x4 (m ((c : Thread nD τ).loc main_arg6)) Facts₀.shapeCasts_S4_S1x4) (?_ : _ = ix2 (0 : Fin 1) j)).trans
    (shapeCast_a_1a_apply _ _ (0 : Fin 1) j)
  funext a
  apply Fin.ext
  match a with
  | ⟨0, _⟩ => show win0_6.index t (0 : Fin 2) * 1 + 1 * 0 = 0; omega
  | ⟨1, _⟩ => show win0_6.index t (1 : Fin 2) * 4 + 1 * j.val = j.val; omega

/-- Window 7's block is the [1, 4] row the host laid `main_arg7` out as: entry (0, j) is the vector's entry j. -/
theorem row_7 (c : Dev nD) (t : Fin cfg0.N) :
    (fun j : Fin 4 => (iblk m c 7 t : FVec Ideal S1x4 .f32) (ix2 (0 : Fin 1) j)) = fun j => (m ((c : Thread nD τ).loc main_arg7)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v4 _ = _
  rw [laid_main_v4 m c]
  refine (congrArg (shapeCast S1x4 (m ((c : Thread nD τ).loc main_arg7)) Facts₀.shapeCasts_S4_S1x4) (?_ : _ = ix2 (0 : Fin 1) j)).trans
    (shapeCast_a_1a_apply _ _ (0 : Fin 1) j)
  funext a
  apply Fin.ext
  match a with
  | ⟨0, _⟩ => show win0_7.index t (0 : Fin 2) * 1 + 1 * 0 = 0; omega
  | ⟨1, _⟩ => show win0_7.index t (1 : Fin 2) * 4 + 1 * j.val = j.val; omega

/-- Window 8's block is the [1, 4] row the host laid `main_arg8` out as: entry (0, j) is the vector's entry j. -/
theorem row_8 (c : Dev nD) (t : Fin cfg0.N) :
    (fun j : Fin 4 => (iblk m c 8 t : FVec Ideal S1x4 .f32) (ix2 (0 : Fin 1) j)) = fun j => (m ((c : Thread nD τ).loc main_arg8)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v5 _ = _
  rw [laid_main_v5 m c]
  refine (congrArg (shapeCast S1x4 (m ((c : Thread nD τ).loc main_arg8)) Facts₀.shapeCasts_S4_S1x4) (?_ : _ = ix2 (0 : Fin 1) j)).trans
    (shapeCast_a_1a_apply _ _ (0 : Fin 1) j)
  funext a
  apply Fin.ext
  match a with
  | ⟨0, _⟩ => show win0_8.index t (0 : Fin 2) * 1 + 1 * 0 = 0; omega
  | ⟨1, _⟩ => show win0_8.index t (1 : Fin 2) * 4 + 1 * j.val = j.val; omega

/-- Window 10's block is the [1, 1] row the host laid `main_arg10` out as: entry (0, j) is the vector's entry j. -/
theorem row_10 (c : Dev nD) (t : Fin cfg0.N) :
    (fun j : Fin 1 => (iblk m c 10 t : FVec Ideal S1x1 .f32) (ix2 (0 : Fin 1) j)) = fun j => (m ((c : Thread nD τ).loc main_arg10)) (ix1 j) := by
  obtain ⟨i0a, i0b, i1a, i1b, i2a, i2b, i3a, i3b, i4a, i4b, i5a, i5b, i6a, i6b, i7a, i7b, i8a, i8b, i9a, i9b, i10a, i10b, i11a, i11b⟩ := index_facts t
  funext j
  unfold iblk
  rw [View.read_apply]
  show V m c main_v6 _ = _
  rw [laid_main_v6 m c]
  refine (congrArg (shapeCast S1x1 (m ((c : Thread nD τ).loc main_arg10)) Facts₀.shapeCasts_S1_S1x1) (?_ : _ = ix2 (0 : Fin 1) j)).trans
    (shapeCast_a_1a_apply _ _ (0 : Fin 1) j)
  funext a
  apply Fin.ext
  match a with
  | ⟨0, _⟩ => show win0_10.index t (0 : Fin 2) * 1 + 1 * 0 = 0; omega
  | ⟨1, _⟩ => show win0_10.index t (1 : Fin 2) * 1 + 1 * j.val = j.val; omega

/-! ### One point's write-back, the cover, the array -/

/-- What point t stores at index y of its block is the result at the array index under y. -/
theorem stored_at (c : Dev nD) (t : Fin cfg0.N) (y : S524288x1.Idx) :
    k0_pay1 (F := Ideal) (k0_pay2 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 10 t) y
      = result m c (((cfg0.win 11).blk t).view.emb y) := by
  obtain ⟨i0a, i0b, i1a, i1b, i2a, i2b, i3a, i3b, i4a, i4b, i5a, i5b, i6a, i6b, i7a, i7b, i8a, i8b, i9a, i9b, i10a, i10b, i11a, i11b⟩ := index_facts t
  obtain ⟨p, z, rfl⟩ : ∃ (p : Fin 524288) (z : Fin 1), y = ix2 p z := ⟨y 0, y 1, eq_ix2 y⟩
  obtain rfl : z = 0 := Subsingleton.elim z 0
  have ht : t.val < 16 := lt_of_lt_of_eq t.isLt N_0
  rw [Row.stored_row (iblk m c 0 t) (iblk m c 1 t) (iblk m c 2 t) (iblk m c 3 t) (iblk m c 4 t) (iblk m c 5 t) (iblk m c 6 t) (iblk m c 7 t) (iblk m c 8 t) (iblk m c 9 t) (iblk m c 10 t) p]
  rw [x_rows m c t p ⟨t.val * 524288 + p.val, by have := p.isLt; omega⟩ rfl, whole_1 m c t, whole_5 m c t, whole_9 m c t,
    row_2 m c t, row_3 m c t, row_4 m c t, row_6 m c t, row_7 m c t, row_8 m c t, row_10 m c t]
  show _ = MlpRow.out (fun k => (m ((c : Thread nD τ).loc main_arg0)) (ix2 ((((cfg0.win 11).blk t).view.emb (ix2 p (0 : Fin 1))) 0) k)) _ _ _ _ _ _ _ _ _ _
  have e0 : (((cfg0.win 11).blk t).view.emb (ix2 p (0 : Fin 1))) 0 = (⟨t.val * 524288 + p.val, by have := p.isLt; omega⟩ : Fin 8388608) := by
    apply Fin.ext
    show win0_11.index t (0 : Fin 2) * 524288 + 1 * p.val = t.val * 524288 + p.val
    omega
  rw [e0]

/-- What point t writes back is block t of the result. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero zero_offsets]
  simp only [View.ld_unit_zero (S := S524288x2) zero_offsets, View.ld_unit_zero (S := S2x8) zero_offsets,
    View.ld_unit_zero (S := S1x8) zero_offsets, View.ld_unit_zero (S := S8x4) zero_offsets,
    View.ld_unit_zero (S := S1x4) zero_offsets, View.ld_unit_zero (S := S4x1) zero_offsets,
    View.ld_unit_zero (S := S1x1) zero_offsets]
  funext y
  exact stored_at m c t y

/-- An index of the array is in point t's block iff each coordinate is in the block's range on its axis. -/
theorem mem_block (t : Fin cfg0.N) (i : S8388608x1.Idx) :
    i ∈ ((cfg0.win 11).blk t).view.set ↔ ∀ a : Fin 2, win0_11.index t a * S524288x1.size a ≤ (i a).val
      ∧ (i a).val < win0_11.index t a * S524288x1.size a + S524288x1.size a := by
  show i ∈ ((View.whole main_v7).slice (win0_11.rect t)).set ↔ _
  rw [View.set_slice_whole, Rect.mem_set_unit]
  exact Iff.rfl

/-- Every row of the result array is in the block of the point (row / 524288). -/
theorem covered (i : S8388608x1.Idx) :
    ∃ t : Fin cfg0.N, (cfg0.win 11).flush t = true ∧ i ∈ ((cfg0.win 11).blk t).view.set := by
  have hi0 : (i 0).val < 8388608 := (i 0).isLt
  have hi1 : (i 1).val < 1 := (i 1).isLt
  have hN : cfg0.N = 16 := N_0
  obtain ⟨t, ht⟩ : ∃ t : Fin cfg0.N, t.val = (i 0).val / 524288 := ⟨⟨(i 0).val / 524288, by rw [hN]; omega⟩, rfl⟩
  obtain ⟨i0a, i0b, i1a, i1b, i2a, i2b, i3a, i3b, i4a, i4b, i5a, i5b, i6a, i6b, i7a, i7b, i8a, i8b, i9a, i9b, i10a, i10b, i11a, i11b⟩ := index_facts t
  refine ⟨t, flush0_11 t, ?_⟩
  rw [mem_block]
  intro a
  match a with
  | ⟨0, _⟩ =>
    show win0_11.index t (0 : Fin 2) * 524288 ≤ (i 0).val ∧ (i 0).val < win0_11.index t (0 : Fin 2) * 524288 + 524288
    omega
  | ⟨1, _⟩ =>
    show win0_11.index t (1 : Fin 2) * 1 ≤ (i 1).val ∧ (i 1).val < win0_11.index t (1 : Fin 2) * 1 + 1
    omega

/-- The result array after the run. -/
theorem final (c : Dev nD) : (dats m 0 c).arrAt 11 cfg0.N = result m c :=
  (dats m 0 c).arrAt_eq_of_cover 11 (result m c) (fun t _ => flushed_eq m c t) covered

/-- The kernel's run: the result array ends at the batch function of the arguments, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 11).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c)⟩)
    (run_main m ρ)

end Cert.KernelIdeal.Hand

end
-- ==== Proof.RefRow.lean ====
/-
  The reference program's result array is the specification's batch function of its eleven arguments.

  The reference computes, over the whole [8388608, ·] arrays, x·W1 + b1 with the host's matrix product and the bias
  vector laid out as a [1, 8] row and repeated down the rows, then (a1 ⊙ h) ⊙ (1 / (1 + exp(-(c1 ⊙ h)))) with the
  logistic function spelt out in negate, exponential, add and divide, and the same twice more. Read at row r each stage
  is the specification's layer at that row: the host product at an entry is the sum over the contracted axis, a repeated
  row reads the vector's entry, the constant 1.0 is the real 1, and 1 / (1 + e^(-z)) is the logistic function.
-/
import proofs.«168140_j66365834658304_1_alg».proof.Proof.Gen.ReferenceIdeal.Read
import proofs.«168140_j66365834658304_1_alg».proof.Proof.MlpRow

noncomputable section

namespace Cert.ReferenceIdeal.RefRow

open Cert.ReferenceIdeal Cert.ReferenceIdeal.Gen Cert.ReferenceIdeal.Read Idealize.ShloMosaic Idealize.ShloMosaic.ValueIdx

/-- The f32 word of 1.0 denotes the real 1. -/
theorem one_f32 : Ideal.ofBits .f32 0x3F800000#32 = 1 := by simp [Ideal.ofBits, Ideal.ieee, -EReal.coe_mul]; norm_num

/-- The host's spelling of the logistic function, with the printed constant 1.0, is the logistic function. -/
theorem logistic_spelt (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [one_f32]
  rfl

/-! ### Where each stage reads its operands, in coordinates -/

theorem l0 (r : Fin 8388608) (j : Fin 8) (k : Fin 2) : lidx_main_v0 (ix2 r j) k = ix2 r k := funext fun a => Fin.ext (by match a with | ⟨0, _⟩ => rfl | ⟨1, _⟩ => rfl)
theorem r0 (r : Fin 8388608) (j : Fin 8) (k : Fin 2) : ridx_main_v0 (ix2 r j) k = ix2 k j := funext fun a => Fin.ext (by match a with | ⟨0, _⟩ => rfl | ⟨1, _⟩ => rfl)
theorem b2i (r : Fin 8388608) (j : Fin 8) : idx_main_v1 (idx_main_v2 (ix2 r j)) = ix1 j := funext fun a => Fin.ext (by match a with | ⟨0, _⟩ => rfl)
theorem b5i (r : Fin 8388608) (j : Fin 8) : idx_main_v4 (idx_main_v5 (ix2 r j)) = ix1 j := funext fun a => Fin.ext (by match a with | ⟨0, _⟩ => rfl)
theorem b8i (r : Fin 8388608) (j : Fin 8) : idx_main_v7 (idx_main_v8 (ix2 r j)) = ix1 j := funext fun a => Fin.ext (by match a with | ⟨0, _⟩ => rfl)
theorem l17 (r : Fin 8388608) (j : Fin 4) (k : Fin 8) : lidx_main_v17 (ix2 r j) k = ix2 r k := funext fun a => Fin.ext (by match a with | ⟨0, _⟩ => rfl | ⟨1, _⟩ => rfl)
theorem r17 (r : Fin 8388608) (j : Fin 4) (k : Fin 8) : ridx_main_v17 (ix2 r j) k = ix2 k j := funext fun a => Fin.ext (by match a with | ⟨0, _⟩ => rfl | ⟨1, _⟩ => rfl)
theorem b19i (r : Fin 8388608) (j : Fin 4) : idx_main_v18 (idx_main_v19 (ix2 r j)) = ix1 j := funext fun a => Fin.ext (by match a with | ⟨0, _⟩ => rfl)
theorem b22i (r : Fin 8388608) (j : Fin 4) : idx_main_v21 (idx_main_v22 (ix2 r j)) = ix1 j := funext fun a => Fin.ext (by match a with | ⟨0, _⟩ => rfl)
theorem b25i (r : Fin 8388608) (j : Fin 4) : idx_main_v24 (idx_main_v25 (ix2 r j)) = ix1 j := funext fun a => Fin.ext (by match a with | ⟨0, _⟩ => rfl)
theorem l34 (r : Fin 8388608) (j : Fin 1) (k : Fin 4) : lidx_main_v34 (ix2 r j) k = ix2 r k := funext fun a => Fin.ext (by match a with | ⟨0, _⟩ => rfl | ⟨1, _⟩ => rfl)
theorem r34 (r : Fin 8388608) (j : Fin 1) (k : Fin 4) : ridx_main_v34 (ix2 r j) k = ix2 k j := funext fun a => Fin.ext (by match a with | ⟨0, _⟩ => rfl | ⟨1, _⟩ => rfl)
theorem b36i (r : Fin 8388608) (j : Fin 1) : idx_main_v35 (idx_main_v36 (ix2 r j)) = ix1 j := by
  obtain rfl : j = 0 := Subsingleton.elim j 0
  exact funext fun a => Fin.ext (by match a with | ⟨0, _⟩ => rfl)

section
variable (x0 : S8388608x2.Idx → EReal) (x1 : S2x8.Idx → EReal) (x2 x3 x4 : S8.Idx → EReal) (x5 : S8x4.Idx → EReal)
  (x6 x7 x8 : S4.Idx → EReal) (x9 : S4x1.Idx → EReal) (x10 : S1.Idx → EReal) (r : Fin 8388608)

/-- First affine layer, row r. -/
theorem pre1_row : (fun j => val_main_v3 (F := Ideal) x0 x1 x2 (ix2 r j)) = (MlpRow.affine (fun k => x0 (ix2 r k)) x1 (fun j => x2 (ix1 j))) := by
  funext j
  rw [val_main_v3_apply, val_main_v0_apply, val_main_v2_apply, val_main_v1_apply]
  simp only [l0, r0, b2i]
  rfl

/-- First activation, row r. -/
theorem act1_row : (fun j => val_main_v16 (F := Ideal) x0 x1 x2 x3 x4 (ix2 r j)) = (MlpRow.gate (fun j => x3 (ix1 j)) (fun j => x4 (ix1 j)) (MlpRow.affine (fun k => x0 (ix2 r k)) x1 (fun j => x2 (ix1 j)))) := by
  funext j
  rw [val_main_v16_apply, val_main_v6_apply, val_main_v15_apply, val_main_v14_apply, val_main_cst_0_apply,
    val_main_v13_apply, val_main_v12_apply, val_main_cst_apply, val_main_v11_apply, val_main_v10_apply, val_main_v9_apply,
    val_main_v8_apply, val_main_v7_apply, val_main_v5_apply, val_main_v4_apply, logistic_spelt, b5i, b8i,
    ← pre1_row x0 x1 x2 r]
  rfl

/-- Second affine layer, row r. -/
theorem pre2_row : (fun j => val_main_v20 (F := Ideal) x0 x1 x2 x3 x4 x5 x6 (ix2 r j)) = (MlpRow.affine (MlpRow.gate (fun j => x3 (ix1 j)) (fun j => x4 (ix1 j)) (MlpRow.affine (fun k => x0 (ix2 r k)) x1 (fun j => x2 (ix1 j)))) x5 (fun j => x6 (ix1 j))) := by
  funext j
  rw [val_main_v20_apply, val_main_v17_apply, val_main_v19_apply, val_main_v18_apply, ← act1_row x0 x1 x2 x3 x4 r]
  simp only [l17, r17, b19i]
  rfl

/-- Second activation, row r. -/
theorem act2_row : (fun j => val_main_v33 (F := Ideal) x0 x1 x2 x3 x4 x5 x6 x7 x8 (ix2 r j)) = (MlpRow.gate (fun j => x7 (ix1 j)) (fun j => x8 (ix1 j)) (MlpRow.affine (MlpRow.gate (fun j => x3 (ix1 j)) (fun j => x4 (ix1 j)) (MlpRow.affine (fun k => x0 (ix2 r k)) x1 (fun j => x2 (ix1 j)))) x5 (fun j => x6 (ix1 j)))) := by
  funext j
  rw [val_main_v33_apply, val_main_v23_apply, val_main_v32_apply, val_main_v31_apply, val_main_cst_2_apply,
    val_main_v30_apply, val_main_v29_apply, val_main_cst_1_apply, val_main_v28_apply, val_main_v27_apply, val_main_v26_apply,
    val_main_v25_apply, val_main_v24_apply, val_main_v22_apply, val_main_v21_apply, logistic_spelt, b22i, b25i,
    ← pre2_row x0 x1 x2 x3 x4 x5 x6 r]
  rfl

end

/-- The reference's last stage, as a whole array, is the specification's batch function. -/
theorem result_eq (x0 : S8388608x2.Idx → EReal) (x1 : S2x8.Idx → EReal) (x2 x3 x4 : S8.Idx → EReal) (x5 : S8x4.Idx → EReal)
    (x6 x7 x8 : S4.Idx → EReal) (x9 : S4x1.Idx → EReal) (x10 : S1.Idx → EReal) :
    val_main_v37 (F := Ideal) x0 x1 x2 x3 x4 x5 x6 x7 x8 x9 x10 = MlpRow.batch x0 x1 x2 x3 x4 x5 x6 x7 x8 x9 x10 := by
  funext i
  obtain ⟨r, z, rfl⟩ : ∃ (r : Fin 8388608) (z : Fin 1), i = ix2 r z := ⟨i 0, i 1, eq_ix2 i⟩
  obtain rfl : z = 0 := Subsingleton.elim z 0
  rw [val_main_v37_apply, val_main_v34_apply, val_main_v36_apply, val_main_v35_apply, b36i]
  simp only [l34, r34]
  show (∑ k : Fin 4, (fun j => val_main_v33 (F := Ideal) x0 x1 x2 x3 x4 x5 x6 x7 x8 (ix2 r j)) k * x9 (ix2 k (0 : Fin 1))) + x10 (ix1 (0 : Fin 1)) = _
  rw [act2_row]
  rfl

end Cert.ReferenceIdeal.RefRow

end
-- ==== Proof.lean ====
/-
  A three-layer perceptron with gated activations over a batch of 8388608 rows: the kernel against its reference.

  Both programs compute, for every row x of the batch,
      out = g(g(x·W1 + b1; a1, c1)·W2 + b2; a2, c2)·W3 + b3,    g(h; a, c) = (a ⊙ h) ⊙ σ(c ⊙ h),
  σ the logistic function. The kernel walks the batch in 16 blocks of 524288 rows, with TensorCore products into zero
  accumulators, the vectors kept as [1, n] rows, and the TensorCore's logistic operation; the reference works on whole
  arrays with the host's products and spells σ(z) as 1 / (1 + exp(-z)). On the extended reals the two spellings of every
  operation denote the same function, the operands of every sum and product come in the same order on both sides, and
  the 16 blocks tile the result array: so the two result arrays are one function of the arguments (the specification's
  batch function), with no algebraic law needed — in particular nothing is asked of the inputs' finiteness.

  The three frames are the generated frame runs (the reference's its generated run with the result dropped); the kernel
  is its own idealization (no rewrite was applied), so the idealization claim is trivial.
-/
import proofs.«168140_j66365834658304_1_alg».proof.Defs
import proofs.«168140_j66365834658304_1_alg».proof.Proof.Gen.Kernel
import proofs.«168140_j66365834658304_1_alg».proof.Proof.Gen.Kernel.Frame
import proofs.«168140_j66365834658304_1_alg».proof.Proof.Gen.KernelIdeal
import proofs.«168140_j66365834658304_1_alg».proof.Proof.Gen.KernelIdeal.Frame
import proofs.«168140_j66365834658304_1_alg».proof.Proof.Gen.ReferenceIdeal
import proofs.«168140_j66365834658304_1_alg».proof.Proof.Gen.ReferenceIdeal.Run
import proofs.«168140_j66365834658304_1_alg».proof.Proof.Gen.ReferenceIdeal.Read
import proofs.«168140_j66365834658304_1_alg».proof.Proof.Gen.Pre_finite_inputs
import proofs.«168140_j66365834658304_1_alg».proof.Proof.KernelValue
import proofs.«168140_j66365834658304_1_alg».proof.Proof.RefRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite, nothing to show. -/
theorem preserves : Cert.preserves_Kernel_KernelIdeal := trivial

/-- Both result arrays are the batch function of the (agreeing) arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v37_eq, Cert.ReferenceIdeal.RefRow.result_eq, a0, a1, a2, a3, a4, a5, a6, a7, a8, a9,
    a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
